-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S8192x32768 : Shape := ⟨2, ![8192, 32768]⟩
abbrev S8x100 : Shape := ⟨2, ![8, 100]⟩
abbrev S100 : Shape := ⟨1, ![100]⟩
abbrev S100x1 : Shape := ⟨2, ![100, 1]⟩
abbrev S1 : Shape := ⟨1, ![1]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S8192x32768 : S_.BroadcastsInDim S8192x32768 (![] : Fin 0 → Fin S8192x32768.rank)
  reducesTo_S8192x32768_S_d0_1 : S8192x32768.ReducesTo [0, 1] S_
  bcast_S_S8x100 : S_.BroadcastsInDim S8x100 (![] : Fin 0 → Fin S8x100.rank)
  reducesTo_S8x100_S_d0_1 : S8x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S100 .f32) (main_arg5 : FVec F S100x1 .f32) (main_arg6 : FVec F S1 .f32) (main_v13 : IVec S_ 1) (main_v16 : IVec S8x100 1) : IVec S_ 1 :=
  let main_c_5 : IVec S_ 1 := constantI S_ 1 1#1
  let main_v17 : IVec S_ 1 := (fun x v => Host.reduce IntOp.andi x v reducesTo_S8x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x1 .f32 := Host.absf main_arg5
  let main_cst_8 : FVec F S_ .f32 := constant S_ .f32 0x7F800000#32
  let main_v25 : FVec F S100x1 .f32 := broadcastInDim S100x1 ![] bcast_S_S100x1 main_cst_8
  let main_v26 : IVec S100x1 1 := cmpf .olt main_v24 main_v25
  let main_c_9 : IVec S_ 1 := constantI S_ 1 1#1
  let main_v27 : IVec S_ 1 := (fun x v => Host.reduce IntOp.andi x v reducesTo_S100x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x4 .f32) (main_arg1 : FVec F S8192x32768 .f32) (main_arg2 : FVec F S8192x32768 .f32) (main_arg3 : FVec F S8x100 .f32) (main_arg4 : FVec F S100 .f32) (main_arg5 : FVec F S100x1 .f32) (main_arg6 : FVec F S1 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x32768 .f32 := Host.absf main_arg1
  let main_cst_0 : FVec F S_ .f32 := constant S_ .f32 0x7F800000#32
  let main_v5 : FVec F S8192x32768 .f32 := broadcastInDim S8192x32768 ![] bcast_S_S8192x32768 main_cst_0
  let main_v6 : IVec S8192x32768 1 := cmpf .olt main_v4 main_v5
  let main_c_1 : IVec S_ 1 := constantI S_ 1 1#1
  let main_v7 : IVec S_ 1 := (fun x v => Host.reduce IntOp.andi x v reducesTo_S8192x32768_S_d0_1 h_S_) main_v6 main_c_1
  let main_v8 : IVec S_ 1 := andi main_v3 main_v7
  let main_v9 : FVec F S8192x32768 .f32 := Host.absf main_arg2
  let main_cst_2 : FVec F S_ .f32 := constant S_ .f32 0x7F800000#32
  let main_v10 : FVec F S8192x32768 .f32 := broadcastInDim S8192x32768 ![] bcast_S_S8192x32768 main_cst_2
  let main_v11 : IVec S8192x32768 1 := cmpf .olt main_v9 main_v10
  let main_c_3 : IVec S_ 1 := constantI S_ 1 1#1
  let main_v12 : IVec S_ 1 := (fun x v => Host.reduce IntOp.andi x v reducesTo_S8192x32768_S_d0_1 h_S_) main_v11 main_c_3
  let main_v13 : IVec S_ 1 := andi main_v8 main_v12
  let main_v14 : FVec F S8x100 .f32 := Host.absf main_arg3
  let main_cst_4 : FVec F S_ .f32 := constant S_ .f32 0x7F800000#32
  let main_v15 : FVec F S8x100 .f32 := broadcastInDim S8x100 ![] bcast_S_S8x100 main_cst_4
  let main_v16 : IVec S8x100 1 := cmpf .olt main_v14 main_v15
  fn_part1 (F := F) main_arg4 main_arg5 main_arg6 main_v13 main_v16
-- ==== Kernel.lean ====
abbrev S8192x4 : Shape := ⟨2, ![8192, 4]⟩
abbrev S8192x32768 : Shape := ⟨2, ![8192, 32768]⟩
abbrev S8x100 : Shape := ⟨2, ![8, 100]⟩
abbrev S100 : Shape := ⟨1, ![100]⟩
abbrev S100x1 : Shape := ⟨2, ![100, 1]⟩
abbrev S1 : Shape := ⟨1, ![1]⟩
abbrev S1x100 : Shape := ⟨2, ![1, 100]⟩
abbrev S1x1 : Shape := ⟨2, ![1, 1]⟩
abbrev S32768x1 : Shape := ⟨2, ![32768, 1]⟩
abbrev S512x4 : Shape := ⟨2, ![512, 4]⟩
abbrev S512x2048 : Shape := ⟨2, ![512, 2048]⟩
abbrev S2048x1 : Shape := ⟨2, ![2048, 1]⟩
abbrev S2048x4 : Shape := ⟨2, ![2048, 4]⟩
abbrev S2048x8 : Shape := ⟨2, ![2048, 8]⟩
abbrev S2048x100 : Shape := ⟨2, ![2048, 100]⟩

abbrev nBuf : Space → Nat
  | .hbm => 10
  | .vmem => 14
  | .smem => 0
  | _ => 0

abbrev bufTy : (tb : Table) → Fin (tcTables nBuf tb) → BufTy
  | .hbm, ⟨0, _⟩ => ⟨S8192x4, .f32⟩
  | .hbm, ⟨1, _⟩ => ⟨S8192x32768, .f32⟩
  | .hbm, ⟨2, _⟩ => ⟨S8192x32768, .f32⟩
  | .hbm, ⟨3, _⟩ => ⟨S8x100, .f32⟩
  | .hbm, ⟨4, _⟩ => ⟨S100, .f32⟩
  | .hbm, ⟨5, _⟩ => ⟨S100x1, .f32⟩
  | .hbm, ⟨6, _⟩ => ⟨S1, .f32⟩
  | .hbm, ⟨7, _⟩ => ⟨S1x100, .f32⟩
  | .hbm, ⟨8, _⟩ => ⟨S1x1, .f32⟩
  | .hbm, ⟨9, _⟩ => ⟨S32768x1, .f32⟩
  | .local _ .vmem, ⟨0, _⟩ => ⟨S512x4, .f32⟩
  | .local _ .vmem, ⟨1, _⟩ => ⟨S512x4, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x100, .f32⟩
  | .local _ .vmem, ⟨7, _⟩ => ⟨S1x100, .f32⟩
  | .local _ .vmem, ⟨8, _⟩ => ⟨S100x1, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | .local _ .vmem, ⟨12, _⟩ => ⟨S2048x4, .f32⟩
  | .local _ .vmem, ⟨13, _⟩ => ⟨S2048x4, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S100x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S100_S1x100 : S100.ShapeCasts S1x100
  shapeCasts_S1_S1x1 : S1.ShapeCasts S1x1
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S512x4_S512x4_0_0 : ∀ a, (![0, 0] : Fin 2 → Nat) a + S512x4.size a ≤ S512x4.size a
  h_S512x4 : 0 < S512x4.numel
  inb_S512x2048_S512x2048_0_0 : ∀ a, (![0, 0] : Fin 2 → Nat) a + S512x2048.size a ≤ S512x2048.size a
  h_S512x2048 : 0 < S512x2048.numel
  concatenates_S2048x4_S2048x4_S2048x8_d1 : Shape.Concatenates [S2048x4, S2048x4] S2048x8 1
  inb_S8x100_S8x100_0_0 : ∀ a, (![0, 0] : Fin 2 → Nat) a + S8x100.size a ≤ S8x100.size a
  h_S8x100 : 0 < S8x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  inb_S100x1_S100x1_0_0 : ∀ a, (![0, 0] : Fin 2 → Nat) a + S100x1.size a ≤ S100x1.size a
  h_S100x1 : 0 < S100x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S512x2048_S512x4_S2048x4_0_0_1_1_n_n_wf : DotDims.WF S512x2048 S512x4 S2048x4 [0] [0] [1] [1] [] []
  dot_S2048x8_S8x100_S2048x100_1_0_0_1_n_n_wf : DotDims.WF S2048x8 S8x100 S2048x100 [1] [0] [0] [1] [] []
  dot_S2048x100_S100x1_S2048x1_1_0_0_1_n_n_wf : DotDims.WF S2048x100 S100x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S8192x4.size a
  hwx0_0 : ∀ i : grid0.Coords, EltTy.bits .f32 = 32 ∨ (Rect.block (s := S8192x4) S512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x32768.size a
  hwx0_1 : ∀ i : grid0.Coords, EltTy.bits .f32 = 32 ∨ (Rect.block (s := S8192x32768) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x32768.size a
  hwx0_2 : ∀ i : grid0.Coords, EltTy.bits .f32 = 32 ∨ (Rect.block (s := S8192x32768) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x100.size a ≤ S8x100.size a
  hwx0_3 : ∀ i : grid0.Coords, EltTy.bits .f32 = 32 ∨ (Rect.block (s := S8x100) S8x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x1.size a ≤ S100x1.size a
  hwx0_5 : ∀ i : grid0.Coords, EltTy.bits .f32 = 32 ∨ (Rect.block (s := S100x1) S100x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S32768x1.size a
  hwx0_7 : ∀ i : grid0.Coords, EltTy.bits .f32 = 32 ∨ (Rect.block (s := S32768x1) S2048x1.size (cc0_transform_7 i) (hinb0_7 i)).WholeWords (EltTy.packing .f32)

variable [Facts₀]

def dot_S512x2048_S512x4_S2048x4_0_0_1_1_n_n : DotDims S512x2048 S512x4 S2048x4 where
  lhsContracting := [0]
  rhsContracting := [0]
  lhsNonContracting := [1]
  rhsNonContracting := [1]
  lhsBatch := []
  rhsBatch := []
  wf := dot_S512x2048_S512x4_S2048x4_0_0_1_1_n_n_wf
def dot_S2048x8_S8x100_S2048x100_1_0_0_1_n_n : DotDims S2048x8 S8x100 S2048x100 where
  lhsContracting := [1]
  rhsContracting := [0]
  lhsNonContracting := [0]
  rhsNonContracting := [1]
  lhsBatch := []
  rhsBatch := []
  wf := dot_S2048x8_S8x100_S2048x100_1_0_0_1_n_n_wf
def dot_S2048x100_S100x1_S2048x1_1_0_0_1_n_n : DotDims S2048x100 S100x1 S2048x1 where
  lhsContracting := [1]
  rhsContracting := [0]
  lhsNonContracting := [0]
  rhsNonContracting := [1]
  lhsBatch := []
  rhsBatch := []
  wf := dot_S2048x100_S100x1_S2048x1_1_0_0_1_n_n_wf

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4 : Shape := ⟨2, ![8192, 4]⟩
abbrev S8192x32768 : Shape := ⟨2, ![8192, 32768]⟩
abbrev S8x100 : Shape := ⟨2, ![8, 100]⟩
abbrev S100 : Shape := ⟨1, ![100]⟩
abbrev S100x1 : Shape := ⟨2, ![100, 1]⟩
abbrev S1 : Shape := ⟨1, ![1]⟩
abbrev S32768x4 : Shape := ⟨2, ![32768, 4]⟩
abbrev S32768x8 : Shape := ⟨2, ![32768, 8]⟩
abbrev S32768x100 : Shape := ⟨2, ![32768, 100]⟩
abbrev S1x100 : Shape := ⟨2, ![1, 100]⟩
abbrev S32768x1 : Shape := ⟨2, ![32768, 1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x32768, .f32⟩
  | .hbm, ⟨2, _⟩ => ⟨S8192x32768, .f32⟩
  | .hbm, ⟨3, _⟩ => ⟨S8x100, .f32⟩
  | .hbm, ⟨4, _⟩ => ⟨S100, .f32⟩
  | .hbm, ⟨5, _⟩ => ⟨S100x1, .f32⟩
  | .hbm, ⟨6, _⟩ => ⟨S1, .f32⟩
  | .hbm, ⟨7, _⟩ => ⟨S32768x4, .f32⟩
  | .hbm, ⟨8, _⟩ => ⟨S32768x4, .f32⟩
  | .hbm, ⟨9, _⟩ => ⟨S32768x8, .f32⟩
  | .hbm, ⟨10, _⟩ => ⟨S32768x100, .f32⟩
  | .hbm, ⟨11, _⟩ => ⟨S1x100, .f32⟩
  | .hbm, ⟨12, _⟩ => ⟨S32768x100, .f32⟩
  | .hbm, ⟨13, _⟩ => ⟨S32768x100, .f32⟩
  | .hbm, ⟨14, _⟩ => ⟨S32768x100, .f32⟩
  | .hbm, ⟨15, _⟩ => ⟨S32768x1, .f32⟩
  | .hbm, ⟨16, _⟩ => ⟨S1x1, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  concatenates_S32768x4_S32768x4_S32768x8_d1 : Shape.Concatenates [S32768x4, S32768x4] S32768x8 1
  bcast_S100_S1x100_1 : S100.BroadcastsInDim S1x100 (![1] : Fin 1 → Fin S1x100.rank)
  bcast_S1x100_S32768x100_0_1 : S1x100.BroadcastsInDim S32768x100 (![0, 1] : Fin 2 → Fin S32768x100.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S8192x32768_S8192x4_S32768x4_0_0_1_1_n_n_wf : DotDims.WF S8192x32768 S8192x4 S32768x4 [0] [0] [1] [1] [] []
  dot_S32768x8_S8x100_S32768x100_1_0_0_1_n_n_wf : DotDims.WF S32768x8 S8x100 S32768x100 [1] [0] [0] [1] [] []
  dot_S32768x100_S100x1_S32768x1_1_0_0_1_n_n_wf : DotDims.WF S32768x100 S100x1 S32768x1 [1] [0] [0] [1] [] []

variable [Facts₀]

def dot_S8192x32768_S8192x4_S32768x4_0_0_1_1_n_n : DotDims S8192x32768 S8192x4 S32768x4 where
  lhsContracting := [0]
  rhsContracting := [0]
  lhsNonContracting := [1]
  rhsNonContracting := [1]
  lhsBatch := []
  rhsBatch := []
  wf := dot_S8192x32768_S8192x4_S32768x4_0_0_1_1_n_n_wf
def dot_S32768x8_S8x100_S32768x100_1_0_0_1_n_n : DotDims S32768x8 S8x100 S32768x100 where
  lhsContracting := [1]
  rhsContracting := [0]
  lhsNonContracting := [0]
  rhsNonContracting := [1]
  lhsBatch := []
  rhsBatch := []
  wf := dot_S32768x8_S8x100_S32768x100_1_0_0_1_n_n_wf
def dot_S32768x100_S100x1_S32768x1_1_0_0_1_n_n : DotDims S32768x100 S100x1 S32768x1 where
  lhsContracting := [1]
  rhsContracting := [0]
  lhsNonContracting := [0]
  rhsNonContracting := [1]
  lhsBatch := []
  rhsBatch := []
  wf := dot_S32768x100_S100x1_S32768x1_1_0_0_1_n_n_wf

class Facts : Prop extends Facts₀ where

variable [Facts]
-- ==== Proof.Pieces.lean ====
/-
  What the kernel body leaves behind at one grid point, as values.

  The body keeps two running totals `[2048, 4]` in scratch. At a point it (first node tile only) zeroes them, then
  adds to each the product of the transposed incidence tile with the node-feature tile; at the last node tile it also
  stores the perceptron's scores of the two totals laid side by side. Each lemma below says that what a case of the
  body leaves in a buffer is that arithmetic of the blocks it loaded: the one covering store's value, its loads read
  through whole buffers.
-/
import proofs.«166029_j24936580121170_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First node tile, the `Ro` total: zeroed, then the tile's product added. -/
theorem totalO_first (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : cond0_0 i) (hc1 : ¬cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S2048x4) hz, View.readCov_unit_zero (S := S2048x4) _ hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- First node tile, the `Ri` total. -/
theorem totalI_first (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : cond0_0 i) (hc1 : ¬cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay4 x0 x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S2048x4) hz, View.readCov_unit_zero (S := S2048x4) _ hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- A middle node tile, the `Ro` total: the tile's product added to what the point before left. -/
theorem totalO_mid (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : ¬cond0_0 i) (hc1 : ¬cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) (xs0 xs1 : Vec F S2048x4 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S2048x4) hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- A middle node tile, the `Ri` total. -/
theorem totalI_mid (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : ¬cond0_0 i) (hc1 : ¬cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) (xs0 xs1 : Vec F S2048x4 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S2048x4) hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- The last node tile, the `Ro` total: as at a middle tile. -/
theorem totalO_last (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : ¬cond0_0 i) (hc1 : cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) (xs0 xs1 : Vec F S2048x4 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero (S := S2048x4) hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- The last node tile, the `Ri` total. -/
theorem totalI_last (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : ¬cond0_0 i) (hc1 : cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) (xs0 xs1 : Vec F S2048x4 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero (S := S2048x4) hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

/-- The last node tile, the output block: the perceptron's scores of the two finished totals. -/
theorem scores_last (c : Dev nD) (i : grid0.Coords) (arg2 : Memref sig .tc .vmem S512x4 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8x100 .f32) (harg5 : arg5.IsWhole) (arg6 : Memref sig .tc .vmem S1x100 .f32) (harg6 : arg6.IsWhole) (arg7 : Memref sig .tc .vmem S100x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x4 .f32) (harg10 : arg10.IsWhole) (arg11 : Memref sig .tc .vmem S2048x4 .f32) (harg11 : arg11.IsWhole) (hc0 : ¬cond0_0 i) (hc1 : cond0_1 i) (x0 : Vec F S512x4 .f32) (x1 : Vec F S512x2048 .f32) (x2 : Vec F S512x2048 .f32) (x3 : Vec F S8x100 .f32) (x4 : Vec F S1x100 .f32) (x5 : Vec F S100x1 .f32) (x6 : Vec F S1x1 .f32) (xs0 xs1 : Vec F S2048x4 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 (k0_pay3 x0 x2 xs0) (k0_pay4 x0 x1 xs1) x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero (S := S2048x1) hz, View.readCov_unit_zero (S := S2048x4) _ hz, View.readCov_unit_zero (S := S2048x4) _ hz]
  simp only [View.readAt_eq_ld, harg2.read_unread, harg3.read_unread, harg4.read_unread, harg5.read_unread, harg6.read_unread, harg7.read_unread, harg8.read_unread, harg10.read_unread, harg11.read_unread, View.ld_unit_zero (S := S512x4) hz, View.ld_unit_zero (S := S512x2048) hz, View.ld_unit_zero (S := S2048x4) hz, View.ld_unit_zero (S := S8x100) hz, View.ld_unit_zero (S := S1x100) hz, View.ld_unit_zero (S := S100x1) hz, View.ld_unit_zero (S := S1x1) hz]

end Cert.KernelIdeal.Pieces

end
-- ==== Proof.EdgeSpec.lean ====
/-
  What an edge network computes, index by index, over the extended reals.

  For node features `X` (8192 nodes, 4 features) and two incidence matrices `Ri`, `Ro` (8192 nodes by 32768 edges),
  edge `e` gathers `bo e d = ∑ n, Ro n e · X n d` and `bi e d = ∑ n, Ri n e · X n d`, lays the two side by side as
  eight features (the four of `bo` first), and scores them with a two-layer perceptron:
  `logistic (∑ h, tanh (∑ j, B j · W1 j h + b1 h) · W2 h + b2)`.

  Also here: a sum over 8192 nodes is the sum, over 16 tiles of 512 nodes, of the tiles' sums — addition on the
  extended reals is commutative and associative, so no finiteness is needed.
-/
import Idealize.ShloMosaic.PureOps.Ideal
import Idealize.ShloMosaic.Lib.ValueIdx

noncomputable section

open scoped BigOperators

namespace Cert.EdgeSpec

open Idealize.ShloMosaic Idealize.ShloMosaic.ValueIdx

/-- Entry `(e, d)` of `Rᵀ · X`: column `e` of `R` against column `d` of `X`, over all nodes. -/
def gather (R : Fin 8192 → Fin 32768 → EReal) (X : Fin 8192 → Fin 4 → EReal) (e : Fin 32768) (d : Fin 4) : EReal :=
  ∑ n : Fin 8192, R n e * X n d

/-- Two rows of four laid side by side: entries 0–3 from the first, 4–7 from the second. -/
def sideBySide (u v : Fin 4 → EReal) (j : Fin 8) : EReal :=
  if h : j.val < 4 then u ⟨j.val, h⟩ else v ⟨j.val - 4, by have := j.isLt; omega⟩

/-- The two-layer perceptron on one row of eight features: a hidden layer of 100 `tanh` units, one logistic output. -/
def head (B : Fin 8 → EReal) (W1 : Fin 8 → Fin 100 → EReal) (b1 : Fin 100 → EReal) (W2 : Fin 100 → EReal)
    (b2 : EReal) : EReal :=
  Ideal.logistic ((∑ h : Fin 100, Ideal.tanh ((∑ j : Fin 8, B j * W1 j h) + b1 h) * W2 h) + b2)

/-- The score of every edge, as an array `[32768, 1]` of the seven argument arrays. -/
def edgeScores (X : (⟨2, ![8192, 4]⟩ : Shape).Idx → EReal) (Ri Ro : (⟨2, ![8192, 32768]⟩ : Shape).Idx → EReal)
    (W1 : (⟨2, ![8, 100]⟩ : Shape).Idx → EReal) (b1 : (⟨1, ![100]⟩ : Shape).Idx → EReal)
    (W2 : (⟨2, ![100, 1]⟩ : Shape).Idx → EReal) (b2 : (⟨1, ![1]⟩ : Shape).Idx → EReal) :
    (⟨2, ![32768, 1]⟩ : Shape).Idx → EReal := fun i =>
  head (sideBySide (gather (fun n e => Ro (ix2 n e)) (fun n d => X (ix2 n d)) (i 0))
      (gather (fun n e => Ri (ix2 n e)) (fun n d => X (ix2 n d)) (i 0)))
    (fun j h => W1 (ix2 j h)) (fun h => b1 (ix1 h)) (fun h => W2 (ix2 h (0 : Fin 1))) (b2 (ix1 (0 : Fin 1)))

/-- Node `512 a + k` of tile `a`. -/
def node (a : Fin 16) (k : Fin 512) : Fin 8192 := ⟨512 * a.val + k.val, by have := a.isLt; have := k.isLt; omega⟩

/-- A sum over the 8192 nodes, tile by tile: 16 tiles of 512. -/
theorem sum_nodes_by_tiles (g : Fin 8192 → EReal) : ∑ n : Fin 8192, g n = ∑ a : Fin 16, ∑ k : Fin 512, g (node a k) := by
  rw [← Equiv.sum_comp (finProdFinEquiv (m := 16) (n := 512)) g, Fintype.sum_prod_type]
  refine Finset.sum_congr rfl fun a _ => Finset.sum_congr rfl fun k _ => ?_
  congr 1
  apply Fin.ext
  show k.val + 512 * a.val = 512 * a.val + k.val
  omega

/-- The same with the tiles counted by a natural number below 16 (as a running total counts them). -/
theorem sum_nodes_by_range (g : Fin 8192 → EReal) (M : ℕ → EReal)
    (hM : ∀ a : Fin 16, M a.val = ∑ k : Fin 512, g (node a k)) :
    ∑ s ∈ Finset.range 16, M s = ∑ n : Fin 8192, g n := by
  rw [sum_nodes_by_tiles, Finset.sum_range]
  exact Finset.sum_congr rfl fun a _ => hM a

end Cert.EdgeSpec

end
-- ==== Proof.RowForms.lean ====
/-
  Two layout operations read at an index, for any number of rows `N`:
  two `[N, 4]` arrays joined along the columns are, row by row, the two rows laid side by side;
  a one-row array `[1, b]` broadcast to `[a, b]` reads the row's entry of the same column.
  And the word `0x3F800000` is the number one.
-/
import proofs.«166029_j24936580121170_2_alg».proof.Proof.EdgeSpec
import Idealize.ShloMosaic.Lib.Pipeline.Value

noncomputable section

namespace Cert.RowForms

open Idealize.ShloMosaic Idealize.ShloMosaic.ValueIdx Cert.EdgeSpec

/-- Row `p` of the column-wise join of `u` and `v` is row `p` of `u` followed by row `p` of `v`. -/
theorem join_cols_apply {N : ℕ} (u v : (⟨2, ![N, 4]⟩ : Shape).Idx → EReal)
    (h : Shape.Concatenates [(⟨2, ![N, 4]⟩ : Shape), ⟨2, ![N, 4]⟩] ⟨2, ![N, 8]⟩ 1) (p : Fin N) (j : Fin 8) :
    concatenate ⟨2, ![N, 8]⟩ 1 [⟨⟨2, ![N, 4]⟩, u⟩, ⟨⟨2, ![N, 4]⟩, v⟩] h (ix2 p j)
      = sideBySide (fun d => u (ix2 p d)) (fun d => v (ix2 p d)) j := by
  unfold sideBySide
  split
  · next hj =>
    exact concatenate_pair_apply_left 1 u v h (ix2 p j) rfl (ix2 p ⟨j.val, hj⟩)
      (fun b => match b with | ⟨0, _⟩ => rfl | ⟨1, _⟩ => rfl)
  · next hj =>
    refine concatenate_pair_apply_right 1 u v h (ix2 p j) rfl rfl (ix2 p ⟨j.val - 4, by have := j.isLt; omega⟩)
      (fun b hb => ?_) ?_
    · match b with
      | ⟨0, _⟩ => rfl
      | ⟨1, _⟩ => exact absurd rfl hb
    · show j.val - 4 + 4 = j.val
      omega

/-- A `[1, b]` row broadcast to `[a, b]` reads, at `(p, q)`, the row's entry `q`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The f32 word of `1.0` is the number one. -/
theorem one_word : Ideal.ofBits .f32 0x3F800000#32 = 1 := by
  simp [Ideal.ofBits, Ideal.ieee, -EReal.coe_mul]
  norm_num

end Cert.RowForms

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColsByCols.lean ====
/-
  THE PRODUCT OF A TRANSPOSED MATRIX WITH A MATRIX, READ AT AN INDEX.

  An `[K, M]` array against a `[K, C]` array with no batch axis, both contracted along their ROWS (axis 0) — the
  product `Aᵀ · B` — is at `(p, q)` the sum over `k < K` of `l (k, p) · r (k, q)`: for the device's matrix unit
  accumulating into zeros and for the host's dot product alike, at the exact instance. Generic in `K`, `M`, `C`.
-/
import Idealize.ShloMosaic.PureOps.Ideal.Laws
import Idealize.ShloMosaic.Lib.ValueIdx
import Idealize.ShloMosaic.Lib.Pipeline.Value

noncomputable section

open scoped BigOperators

namespace Cert.ColsByCols

open Idealize.ShloMosaic Idealize.ShloMosaic.ValueIdx

/-- The dimension numbers of `[K, M]ᵀ × [K, C] → [M, C]`: both operands contracted on axis 0. -/
abbrev colsDot (K M C : Nat)
    (wf : DotDims.WF ⟨2, ![K, M]⟩ ⟨2, ![K, C]⟩ ⟨2, ![M, C]⟩ [0] [0] [1] [1] [] []) :
    DotDims ⟨2, ![K, M]⟩ ⟨2, ![K, C]⟩ ⟨2, ![M, C]⟩ where
  lhsContracting := [0]
  rhsContracting := [0]
  lhsNonContracting := [1]
  rhsNonContracting := [1]
  lhsBatch := []
  rhsBatch := []
  wf := wf

section
variable {K M C : Nat} (wf : DotDims.WF ⟨2, ![K, M]⟩ ⟨2, ![K, C]⟩ ⟨2, ![M, C]⟩ [0] [0] [1] [1] [] [])

/-- The contraction sum of `Aᵀ · B`, re-indexed by `k < K`. -/
theorem colsDot_sum (l : (⟨2, ![K, M]⟩ : Shape).Idx → EReal) (r : (⟨2, ![K, C]⟩ : Shape).Idx → EReal) (p : Fin M) (q : Fin C) :
    ∑ k : (colsDot K M C wf).contr.Idx, l ((colsDot K M C wf).lhsIdx (ix2 p q) k) * r ((colsDot K M C wf).rhsIdx (ix2 p q) k)
      = ∑ k : Fin K, l (ix2 k p) * r (ix2 k q) := by
  rw [← Equiv.sum_comp (contrEquiv1 (colsDot K M C wf) K rfl rfl).symm]
  refine Finset.sum_congr rfl fun k _ => ?_
  have hk := contrEquiv1_symm_val (colsDot K M C wf) K rfl rfl k
  have el : (colsDot K M C wf).lhsIdx (ix2 p q) ((contrEquiv1 (colsDot K M C wf) K rfl rfl).symm k) = ix2 k p :=
    funext fun a => Fin.ext (by
      match a with
      | ⟨0, _⟩ => exact ((colsDot K M C wf).lhsIdx_val_of_single rfl _ _).trans hk
      | ⟨1, _⟩ =>
        show ((colsDot K M C wf).lhsIdx (ix2 p q) _ 1).val = p.val
        unfold DotDims.lhsIdx
        rw [dif_neg (show ¬(1 : Fin 2) ∈ (colsDot K M C wf).lhsBatch from List.not_mem_nil),
          dif_pos (show (1 : Fin 2) ∈ (colsDot K M C wf).lhsNonContracting from List.mem_singleton.mpr rfl)]
        rfl)
  have er : (colsDot K M C wf).rhsIdx (ix2 p q) ((contrEquiv1 (colsDot K M C wf) K rfl rfl).symm k) = ix2 k q :=
    funext fun a => Fin.ext (by
      match a with
      | ⟨0, _⟩ => exact ((colsDot K M C wf).rhsIdx_val_of_single rfl _ _).trans hk
      | ⟨1, _⟩ =>
        show ((colsDot K M C wf).rhsIdx (ix2 p q) _ 1).val = q.val
        unfold DotDims.rhsIdx
        rw [dif_neg (show ¬(1 : Fin 2) ∈ (colsDot K M C wf).rhsBatch from List.not_mem_nil),
          dif_pos (show (1 : Fin 2) ∈ (colsDot K M C wf).rhsNonContracting from List.mem_singleton.mpr rfl)]
        rfl)
  rw [el, er]

/-- The device's matrix unit accumulating into zeros. -/
theorem matmul_cols_apply {φ₁ φ₂ : FTy} (prec : Option ContractPrecision) (l : FVec Ideal ⟨2, ![K, M]⟩ φ₁)
    (r : FVec Ideal ⟨2, ![K, C]⟩ φ₂) (p : Fin M) (q : Fin C) :
    FloatOps.matmul (colsDot K M C wf) prec l r (constant ⟨2, ![M, C]⟩ .f32 0x00000000#32) (ix2 p q)
      = ∑ k : Fin K, l (ix2 k p) * r (ix2 k q) := by
  rw [Ideal.matmul_constant_zero_apply]
  exact colsDot_sum wf l r p q

/-- The host's dot product. -/
theorem dotGeneral_cols_apply {φ₁ φ₂ : FTy} (prec : Option ContractPrecision) (sched : HostSchedule)
    (l : FVec Ideal ⟨2, ![K, M]⟩ φ₁) (r : FVec Ideal ⟨2, ![K, C]⟩ φ₂) (p : Fin M) (q : Fin C) :
    FloatOps.dotGeneral (colsDot K M C wf) prec sched l r (ix2 p q) = ∑ k : Fin K, l (ix2 k p) * r (ix2 k q) := by
  rw [Ideal.dotGeneral_apply]
  exact colsDot_sum wf l r p q

end

end Cert.ColsByCols

end
-- ==== Proof.Payloads.lean ====
/-
  The kernel body's arithmetic at an index, over the extended reals.

  The zero block is zero everywhere; a running total after a node tile is the total before plus, at `(p, d)`, the sum
  over the tile's 512 nodes `k` of `R (k, p) · X (k, d)` (the incidence tile enters transposed); the stored scores
  are, row by row, the two-layer perceptron of the two totals' rows laid side by side.
-/
import proofs.«166029_j24936580121170_2_alg».proof.Proof.Gen.KernelIdeal.Skeleton
import proofs.«166029_j24936580121170_2_alg».proof.Proof.RowForms
import proofs.«166029_j24936580121170_2_alg».proof.Proof.LibMatOps
import proofs.«166029_j24936580121170_2_alg».proof.Proof.LibColsByCols

noncomputable section

open scoped BigOperators

namespace Cert.KernelIdeal.Payloads

open Cert.KernelIdeal Cert.KernelIdeal.Gen Idealize.ShloMosaic Idealize.ShloMosaic.ValueIdx Cert.EdgeSpec Cert.RowForms

/-- The zero block the first node tile stores into the `Ro` total. -/
theorem zerosO_apply (y : S2048x4.Idx) : k0_pay1 (F := Ideal) y = 0 := by
  unfold k0_pay1
  refine (congrFun (shapeCast_self _ _) y).trans ?_
  exact Ideal.ofBits_zero_f32

/-- The zero block the first node tile stores into the `Ri` total. -/
theorem zerosI_apply (y : S2048x4.Idx) : k0_pay2 (F := Ideal) y = 0 := by
  unfold k0_pay2
  refine (congrFun (shapeCast_self _ _) y).trans ?_
  exact Ideal.ofBits_zero_f32

/-- One node tile's contribution at `(p, d)`: the incidence tile, transposed, against the node-feature tile. -/
def tileSum (R : Vec Ideal S512x2048 .f32) (X : Vec Ideal S512x4 .f32) (p : Fin 2048) (d : Fin 4) : EReal :=
  ∑ k : Fin 512, R (ix2 k p) * X (ix2 k d)

/-- The `Ro` total after a node tile: what it held plus the tile's `Roᵀ · X`. -/
theorem addTileO_apply (x0 : Vec Ideal S512x4 .f32) (x2 : Vec Ideal S512x2048 .f32) (acc : Vec Ideal S2048x4 .f32)
    (p : Fin 2048) (d : Fin 4) :
    k0_pay3 x0 x2 acc (ix2 p d) = acc (ix2 p d) + tileSum x2 x0 p d := by
  unfold k0_pay3
  refine (congrFun (shapeCast_self _ _) (ix2 p d)).trans ?_
  exact congrArg (acc (ix2 p d) + ·)
    (ColsByCols.matmul_cols_apply Facts₀.dot_S512x2048_S512x4_S2048x4_0_0_1_1_n_n_wf none x2 x0 p d)

/-- The `Ri` total after a node tile: what it held plus the tile's `Riᵀ · X`. -/
theorem addTileI_apply (x0 : Vec Ideal S512x4 .f32) (x1 : Vec Ideal S512x2048 .f32) (acc : Vec Ideal S2048x4 .f32)
    (p : Fin 2048) (d : Fin 4) :
    k0_pay4 x0 x1 acc (ix2 p d) = acc (ix2 p d) + tileSum x1 x0 p d := by
  unfold k0_pay4
  refine (congrFun (shapeCast_self _ _) (ix2 p d)).trans ?_
  exact congrArg (acc (ix2 p d) + ·)
    (ColsByCols.matmul_cols_apply Facts₀.dot_S512x2048_S512x4_S2048x4_0_0_1_1_n_n_wf none x1 x0 p d)

/-- The stored scores, row `p`: the perceptron of the two totals' rows `p` side by side. -/
theorem scores_apply (bo bi : Vec Ideal S2048x4 .f32) (w1 : Vec Ideal S8x100 .f32) (b1 : Vec Ideal S1x100 .f32)
    (w2 : Vec Ideal S100x1 .f32) (b2 : Vec Ideal S1x1 .f32) (p : Fin 2048) :
    k0_pay5 bo bi w1 b1 w2 b2 (ix2 p (0 : Fin 1))
      = head (sideBySide (fun d => bo (ix2 p d)) (fun d => bi (ix2 p d))) (fun j h => w1 (ix2 j h))
          (fun h => b1 (ix2 (0 : Fin 1) h)) (fun h => w2 (ix2 h (0 : Fin 1))) (b2 (ix2 (0 : Fin 1) (0 : Fin 1))) := by
  unfold k0_pay5 head
  dsimp only
  show Ideal.logistic (_ + _) = Ideal.logistic (_ + _)
  refine congrArg Ideal.logistic (congrArg₂ (· + ·) ?_ ?_)
  · refine (MatOps.matmul_plain_apply Facts₀.dot_S2048x100_S100x1_S2048x1_1_0_0_1_n_n_wf none _ w2 p (0 : Fin 1)).trans ?_
    refine Finset.sum_congr rfl fun h _ => congrArg (· * w2 (ix2 h (0 : Fin 1))) ?_
    show Ideal.tanh (_ + _) = Ideal.tanh (_ + _)
    refine congrArg Ideal.tanh (congrArg₂ (· + ·) ?_ ?_)
    · refine (MatOps.matmul_plain_apply Facts₀.dot_S2048x8_S8x100_S2048x100_1_0_0_1_n_n_wf none _ w1 p h).trans ?_
      exact Finset.sum_congr rfl fun j _ => congrArg (· * w1 (ix2 j h)) (join_cols_apply bo bi _ p j)
    · exact (broadcastTo_row_apply _ _ p h).trans (congrFun (shapeCast_self b1 _) _)
  · exact (broadcastTo_row_apply _ _ p (0 : Fin 1)).trans (congrFun (shapeCast_self b2 _) _)

end Cert.KernelIdeal.Payloads

end
-- ==== Proof.Blocks.lean ====
/-
  What each window's block holds at a grid point, read off the argument arrays.

  Point `t` of the 16 × 16 grid is edge tile `t / 16`, node tile `t % 16`. The node-feature block holds the 512
  nodes `512 (t % 16) + k`; an incidence block holds those nodes against the 2048 edges `2048 (t / 16) + p`; the
  weights' blocks are the whole arrays, the two biases seen as one-row matrices.
-/
import proofs.«166029_j24936580121170_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps over the grid: which block of each array a point's windows name. -/
theorem block_indices : ∀ t : Fin cfg0.N,
    win0_0.index t (0 : Fin 2) = t.val % 16 ∧ win0_0.index t (1 : Fin 2) = 0
    ∧ win0_1.index t (0 : Fin 2) = t.val % 16 ∧ win0_1.index t (1 : Fin 2) = t.val / 16
    ∧ win0_2.index t (0 : Fin 2) = t.val % 16 ∧ win0_2.index t (1 : Fin 2) = t.val / 16
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 16 ∧ win0_7.index t (1 : Fin 2) = 0 :=
  (by decide +kernel : ∀ t : Fin grid0.N, _)

/-- Node `k` of point `t`'s node tile. -/
def nodeOf (t : Fin cfg0.N) (k : Fin 512) : Fin 8192 :=
  ⟨512 * (t.val % 16) + k.val, by have := k.isLt; omega⟩

/-- Edge `p` of point `t`'s edge tile. -/
def edgeOf (t : Fin cfg0.N) (p : Fin 2048) : Fin 32768 :=
  ⟨2048 * (t.val / 16) + p.val, by have := p.isLt; have := t.isLt; have : cfg0.N = 256 := N_0; omega⟩

/-- The node-feature block. -/
theorem blockX (c : Dev nD) (t : Fin cfg0.N) (k : Fin 512) (d : Fin 4) :
    (iblk m c 0 t : Vec F S512x4 .f32) (ix2 k d) = m ((c : Thread nD τ).loc main_arg0) (ix2 (nodeOf t k) d) := by
  unfold iblk
  rw [View.read_apply]
  show V m c main_arg0 _ = _
  rw [V_main_arg0]
  refine congrArg (m ((c : Thread nD τ).loc main_arg0)) (funext fun a => Fin.ext ?_)
  obtain ⟨e0, e1, -⟩ := block_indices t
  match a with
  | ⟨0, _⟩ => show win0_0.index t (0 : Fin 2) * 512 + 1 * k.val = 512 * (t.val % 16) + k.val; omega
  | ⟨1, _⟩ => show win0_0.index t (1 : Fin 2) * 4 + 1 * d.val = d.val; omega

/-- The `Ri` incidence block. -/
theorem blockRi (c : Dev nD) (t : Fin cfg0.N) (k : Fin 512) (p : Fin 2048) :
    (iblk m c 1 t : Vec F S512x2048 .f32) (ix2 k p)
      = m ((c : Thread nD τ).loc main_arg1) (ix2 (nodeOf t k) (edgeOf t p)) := by
  unfold iblk
  rw [View.read_apply]
  show V m c main_arg1 _ = _
  rw [V_main_arg1]
  refine congrArg (m ((c : Thread nD τ).loc main_arg1)) (funext fun a => Fin.ext ?_)
  obtain ⟨-, -, e0, e1, -⟩ := block_indices t
  match a with
  | ⟨0, _⟩ => show win0_1.index t (0 : Fin 2) * 512 + 1 * k.val = 512 * (t.val % 16) + k.val; omega
  | ⟨1, _⟩ => show win0_1.index t (1 : Fin 2) * 2048 + 1 * p.val = 2048 * (t.val / 16) + p.val; omega

/-- The `Ro` incidence block. -/
theorem blockRo (c : Dev nD) (t : Fin cfg0.N) (k : Fin 512) (p : Fin 2048) :
    (iblk m c 2 t : Vec F S512x2048 .f32) (ix2 k p)
      = m ((c : Thread nD τ).loc main_arg2) (ix2 (nodeOf t k) (edgeOf t p)) := by
  unfold iblk
  rw [View.read_apply]
  show V m c main_arg2 _ = _
  rw [V_main_arg2]
  refine congrArg (m ((c : Thread nD τ).loc main_arg2)) (funext fun a => Fin.ext ?_)
  obtain ⟨-, -, -, -, e0, e1, -⟩ := block_indices t
  match a with
  | ⟨0, _⟩ => show win0_2.index t (0 : Fin 2) * 512 + 1 * k.val = 512 * (t.val % 16) + k.val; omega
  | ⟨1, _⟩ => show win0_2.index t (1 : Fin 2) * 2048 + 1 * p.val = 2048 * (t.val / 16) + p.val; omega

/-- The first layer's weights: the whole array. -/
theorem blockW1 (c : Dev nD) (t : Fin cfg0.N) (j : Fin 8) (h : Fin 100) :
    (iblk m c 3 t : Vec F S8x100 .f32) (ix2 j h) = m ((c : Thread nD τ).loc main_arg3) (ix2 j h) := by
  unfold iblk
  rw [View.read_apply]
  show V m c main_arg3 _ = _
  rw [V_main_arg3]
  refine congrArg (m ((c : Thread nD τ).loc main_arg3)) (funext fun a => Fin.ext ?_)
  obtain ⟨-, -, -, -, -, -, e0, e1, -⟩ := block_indices t
  match a with
  | ⟨0, _⟩ => show win0_3.index t (0 : Fin 2) * 8 + 1 * j.val = j.val; omega
  | ⟨1, _⟩ => show win0_3.index t (1 : Fin 2) * 100 + 1 * h.val = h.val; omega

/-- The second layer's weights: the whole array. -/
theorem blockW2 (c : Dev nD) (t : Fin cfg0.N) (h : Fin 100) :
    (iblk m c 5 t : Vec F S100x1 .f32) (ix2 h (0 : Fin 1)) = m ((c : Thread nD τ).loc main_arg5) (ix2 h (0 : Fin 1)) := by
  unfold iblk
  rw [View.read_apply]
  show V m c main_arg5 _ = _
  rw [V_main_arg5]
  refine congrArg (m ((c : Thread nD τ).loc main_arg5)) (funext fun a => Fin.ext ?_)
  obtain ⟨-, -, -, -, -, -, -, -, -, -, e0, e1, -⟩ := block_indices t
  match a with
  | ⟨0, _⟩ => show win0_5.index t (0 : Fin 2) * 100 + 1 * h.val = h.val; omega
  | ⟨1, _⟩ => show win0_5.index t (1 : Fin 2) * 1 + 1 * 0 = 0; omega

/-- The first bias as the region finds it: the vector seen as one row. -/
theorem rowB1 (c : Dev nD) (h : Fin 100) :
    (V m c main_v0 : S1x100.Idx → Elt F .f32) (ix2 (0 : Fin 1) h) = m ((c : Thread nD τ).loc main_arg4) (ix1 h) := by
  have e : (V m c main_v0 : S1x100.Idx → Elt F .f32)
      = shapeCast S1x100 (m ((c : Thread nD τ).loc main_arg4)) Facts₀.shapeCasts_S100_S1x100 := by
    dsimp only [Gen.V, Gen.hostOps0]; after_results; rfl
  rw [e]
  refine shapeCast_apply _ _ (ix2 (0 : Fin 1) h) (ix1 h) ?_
  rw [Shape.rowMajor_val_one, Shape.rowMajor_val_two]
  show h.val = 0 * 100 + h.val
  omega

/-- The second bias as the region finds it: the one entry seen as a one-by-one matrix. -/
theorem rowB2 (c : Dev nD) :
    (V m c main_v1 : S1x1.Idx → Elt F .f32) (ix2 (0 : Fin 1) (0 : Fin 1)) = m ((c : Thread nD τ).loc main_arg6) (ix1 (0 : Fin 1)) := by
  have e : (V m c main_v1 : S1x1.Idx → Elt F .f32)
      = shapeCast S1x1 (m ((c : Thread nD τ).loc main_arg6)) Facts₀.shapeCasts_S1_S1x1 := by
    dsimp only [Gen.V, Gen.hostOps0]; after_results; rfl
  rw [e]
  refine shapeCast_apply _ _ (ix2 (0 : Fin 1) (0 : Fin 1)) (ix1 (0 : Fin 1)) ?_
  rw [Shape.rowMajor_val_one, Shape.rowMajor_val_two]
  rfl

/-- The first bias's block. -/
theorem blockB1 (c : Dev nD) (t : Fin cfg0.N) (h : Fin 100) :
    (iblk m c 4 t : Vec F S1x100 .f32) (ix2 (0 : Fin 1) h) = m ((c : Thread nD τ).loc main_arg4) (ix1 h) := by
  refine Eq.trans ?_ (rowB1 m c h)
  unfold iblk
  rw [View.read_apply]
  show V m c main_v0 _ = V m c main_v0 _
  refine congrArg (V m c main_v0) (funext fun a => Fin.ext ?_)
  obtain ⟨-, -, -, -, -, -, -, -, e0, e1, -⟩ := block_indices t
  match a with
  | ⟨0, _⟩ => show win0_4.index t (0 : Fin 2) * 1 + 1 * 0 = 0; omega
  | ⟨1, _⟩ => show win0_4.index t (1 : Fin 2) * 100 + 1 * h.val = h.val; omega

/-- The second bias's block. -/
theorem blockB2 (c : Dev nD) (t : Fin cfg0.N) :
    (iblk m c 6 t : Vec F S1x1 .f32) (ix2 (0 : Fin 1) (0 : Fin 1)) = m ((c : Thread nD τ).loc main_arg6) (ix1 (0 : Fin 1)) := by
  refine Eq.trans ?_ (rowB2 m c)
  unfold iblk
  rw [View.read_apply]
  show V m c main_v1 _ = V m c main_v1 _
  refine congrArg (V m c main_v1) (funext fun a => Fin.ext ?_)
  obtain ⟨-, -, -, -, -, -, -, -, -, -, -, -, e0, e1, -⟩ := block_indices t
  match a with
  | ⟨0, _⟩ => show win0_6.index t (0 : Fin 2) * 1 + 1 * 0 = 0; omega
  | ⟨1, _⟩ => show win0_6.index t (1 : Fin 2) * 1 + 1 * 0 = 0; omega

end Cert.KernelIdeal.Blocks

end
-- ==== Proof.Totals.lean ====
/-
  The running totals, the block each edge tile writes back, and the result array.

  Within an edge tile `q` (points `16 q … 16 q + 15`) the `Ro` total after point `16 q + j` is, at `(p, d)`, the sum
  over the node tiles `s ≤ j` of the tile sums `∑ k, Ro (512 s + k, 2048 q + p) · X (512 s + k, d)` — a zero and
  `j + 1` additions, in any order the same extended real. After the last node tile that is the sum over all 8192
  nodes; the block written back there is the perceptron's scores of edges `2048 q … 2048 q + 2047`, and the sixteen
  blocks fill the result array.
-/
import proofs.«166029_j24936580121170_2_alg».proof.Proof.Gen.KernelIdeal.Value
import proofs.«166029_j24936580121170_2_alg».proof.Proof.Pieces
import proofs.«166029_j24936580121170_2_alg».proof.Proof.Payloads
import proofs.«166029_j24936580121170_2_alg».proof.Proof.Blocks

set_option maxRecDepth 16384

noncomputable section

open scoped BigOperators
open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Value Cert.KernelIdeal.Blocks Idealize.ShloMosaic.ValueIdx Cert.EdgeSpec

variable (m : (ℓ : Loc nD τ sig) → Buf (Elt Ideal) ℓ) (ρ : Dev nD → PrngReg)

/-- What point `n` adds to the `Ro` total at `(p, d)`: its incidence block, transposed, against its node block. -/
def tileO (c : Dev nD) (n : ℕ) (p : Fin 2048) (d : Fin 4) : EReal :=
  if h : n < cfg0.N then Payloads.tileSum (iblk m c 2 ⟨n, h⟩) (iblk m c 0 ⟨n, h⟩) p d else 0

/-- What point `n` adds to the `Ri` total at `(p, d)`. -/
def tileI (c : Dev nD) (n : ℕ) (p : Fin 2048) (d : Fin 4) : EReal :=
  if h : n < cfg0.N then Payloads.tileSum (iblk m c 1 ⟨n, h⟩) (iblk m c 0 ⟨n, h⟩) p d else 0

/-- THE `Ro` TOTAL after point `t`: the sum of the addends of its edge tile's points up to `t`. -/
theorem totalO_eq (c : Dev nD) (t : Fin cfg0.N) (p : Fin 2048) (d : Fin 4) :
    (outsAt0 m c t.val t.isLt).2.1 (ix2 p d)
      = ∑ s ∈ Finset.range (t.val % 16 + 1), tileO m c (16 * (t.val / 16) + s) p d := by
  rw [soutsAt0_0_eq m c t]
  refine (Pipeline.accAt_add_apply (N := cfg0.N) (ι := S2048x4.Idx) (β := EReal) _ (scAt0_0 m c) (fun _ => 0)
    (fun n i => tileO m c n ⟨(i 0).val, (i 0).isLt⟩ ⟨(i 1).val, (i 1).isLt⟩) (16 * (t.val / 16)) 15 ?_ ?_
    (t.val % 16) (by omega) _ (ix2 p d)).trans (zero_add _)
  · intro h i
    obtain ⟨p, d, rfl⟩ : ∃ (p : Fin 2048) (d : Fin 4), i = ix2 p d := ⟨i 0, i 1, eq_ix2 i⟩
    have h0 : (16 * (t.val / 16)) % 16 = 0 := Nat.mul_mod_right _ _
    have h1 : ¬(16 * (t.val / 16)) % 16 = 15 := by omega
    unfold scAt0_0
    rw [dif_pos h0, dif_neg h1, Pieces.totalO_first]
    refine (Payloads.addTileO_apply _ _ _ p d).trans ?_
    rw [Payloads.zerosO_apply]
    show (0 : EReal) + _ = 0 + tileO m c (16 * (t.val / 16)) p d
    unfold tileO
    rw [dif_pos h]
  · intro n h acc i hb he
    obtain ⟨p, d, rfl⟩ : ∃ (p : Fin 2048) (d : Fin 4), i = ix2 p d := ⟨i 0, i 1, eq_ix2 i⟩
    have h0 : ¬n % 16 = 0 := by omega
    unfold scAt0_0
    rw [dif_neg h0]
    by_cases h1 : n % 16 = 15
    · rw [dif_pos h1, Pieces.totalO_last]
      refine (Payloads.addTileO_apply _ _ _ p d).trans ?_
      show acc (ix2 p d) + _ = acc (ix2 p d) + tileO m c n p d
      unfold tileO
      rw [dif_pos h]
    · rw [dif_neg h1, Pieces.totalO_mid]
      refine (Payloads.addTileO_apply _ _ _ p d).trans ?_
      show acc (ix2 p d) + _ = acc (ix2 p d) + tileO m c n p d
      unfold tileO
      rw [dif_pos h]

/-- THE `Ri` TOTAL after point `t`. -/
theorem totalI_eq (c : Dev nD) (t : Fin cfg0.N) (p : Fin 2048) (d : Fin 4) :
    (outsAt0 m c t.val t.isLt).2.2 (ix2 p d)
      = ∑ s ∈ Finset.range (t.val % 16 + 1), tileI m c (16 * (t.val / 16) + s) p d := by
  rw [soutsAt0_1_eq m c t]
  refine (Pipeline.accAt_add_apply (N := cfg0.N) (ι := S2048x4.Idx) (β := EReal) _ (scAt0_1 m c) (fun _ => 0)
    (fun n i => tileI m c n ⟨(i 0).val, (i 0).isLt⟩ ⟨(i 1).val, (i 1).isLt⟩) (16 * (t.val / 16)) 15 ?_ ?_
    (t.val % 16) (by omega) _ (ix2 p d)).trans (zero_add _)
  · intro h i
    obtain ⟨p, d, rfl⟩ : ∃ (p : Fin 2048) (d : Fin 4), i = ix2 p d := ⟨i 0, i 1, eq_ix2 i⟩
    have h0 : (16 * (t.val / 16)) % 16 = 0 := Nat.mul_mod_right _ _
    have h1 : ¬(16 * (t.val / 16)) % 16 = 15 := by omega
    unfold scAt0_1
    rw [dif_pos h0, dif_neg h1, Pieces.totalI_first]
    refine (Payloads.addTileI_apply _ _ _ p d).trans ?_
    rw [Payloads.zerosI_apply]
    show (0 : EReal) + _ = 0 + tileI m c (16 * (t.val / 16)) p d
    unfold tileI
    rw [dif_pos h]
  · intro n h acc i hb he
    obtain ⟨p, d, rfl⟩ : ∃ (p : Fin 2048) (d : Fin 4), i = ix2 p d := ⟨i 0, i 1, eq_ix2 i⟩
    have h0 : ¬n % 16 = 0 := by omega
    unfold scAt0_1
    rw [dif_neg h0]
    by_cases h1 : n % 16 = 15
    · rw [dif_pos h1, Pieces.totalI_last]
      refine (Payloads.addTileI_apply _ _ _ p d).trans ?_
      show acc (ix2 p d) + _ = acc (ix2 p d) + tileI m c n p d
      unfold tileI
      rw [dif_pos h]
    · rw [dif_neg h1, Pieces.totalI_mid]
      refine (Payloads.addTileI_apply _ _ _ p d).trans ?_
      show acc (ix2 p d) + _ = acc (ix2 p d) + tileI m c n p d
      unfold tileI
      rw [dif_pos h]

end Cert.KernelIdeal.Totals

end
-- ==== Proof.Result.lean ====
/-
  The result array of the kernel: the edge scores of its arguments.

  After the last node tile of an edge tile the two totals are the sums over all 8192 nodes (sixteen tile sums, tile
  by tile); the block written back there holds, row `p`, the perceptron of edge `2048 (t / 16) + p`'s eight
  features; each edge lies in exactly the block of its tile's last point, so the sixteen blocks fill the array.
-/
import proofs.«166029_j24936580121170_2_alg».proof.Proof.Totals

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Cert.KernelIdeal.Blocks Cert.KernelIdeal.Totals Idealize.ShloMosaic.ValueIdx
  Cert.EdgeSpec

variable (m : (ℓ : Loc nD τ sig) → Buf (Elt Ideal) ℓ) (ρ : Dev nD → PrngReg)

/-- The argument arrays as launched. -/
abbrev argX (c : Dev nD) : S8192x4.Idx → EReal := m ((c : Thread nD τ).loc main_arg0)
abbrev argRi (c : Dev nD) : S8192x32768.Idx → EReal := m ((c : Thread nD τ).loc main_arg1)
abbrev argRo (c : Dev nD) : S8192x32768.Idx → EReal := m ((c : Thread nD τ).loc main_arg2)

/-- The edge scores of the argument arrays as launched. -/
def scores (c : Dev nD) : S32768x1.Idx → EReal :=
  edgeScores (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem head_congr {B B' : Fin 8 → EReal} {W1 W1' : Fin 8 → Fin 100 → EReal} {b1 b1' : Fin 100 → EReal}
    {W2 W2' : Fin 100 → EReal} {b2 b2' : EReal} (hB : B = B') (h1 : W1 = W1') (h2 : b1 = b1') (h3 : W2 = W2')
    (h4 : b2 = b2') : head B W1 b1 W2 b2 = head B' W1' b1' W2' b2' := by
  subst hB h1 h2 h3 h4; rfl

/-- After an edge tile's last point the `Ro` total is the sum over every node. -/
theorem totalO_all (c : Dev nD) (t : Fin cfg0.N) (h1 : t.val % 16 = 15) (p : Fin 2048) (d : Fin 4) :
    (outsAt0 m c t.val t.isLt).2.1 (ix2 p d)
      = gather (fun n e => argRo m c (ix2 n e)) (fun n d => argX m c (ix2 n d)) (edgeOf t p) d := by
  rw [totalO_eq, h1]
  unfold gather
  refine sum_nodes_by_range
    (fun n => argRo m c (ix2 n (edgeOf t p)) * argX m c (ix2 n d)) _ (fun a => ?_)
  have hN : cfg0.N = 256 := N_0
  have hlt : 16 * (t.val / 16) + a.val < cfg0.N := by have := t.isLt; have := a.isLt; omega
  unfold tileO
  rw [dif_pos hlt]
  unfold Payloads.tileSum
  refine Finset.sum_congr rfl fun k _ => ?_
  rw [blockRo, blockX]
  have e1 : nodeOf ⟨16 * (t.val / 16) + a.val, hlt⟩ k = node a k := Fin.ext (by
    show 512 * ((16 * (t.val / 16) + a.val) % 16) + k.val = 512 * a.val + k.val
    have := a.isLt; omega)
  have e2 : edgeOf ⟨16 * (t.val / 16) + a.val, hlt⟩ p = edgeOf t p := Fin.ext (by
    show 2048 * ((16 * (t.val / 16) + a.val) / 16) + p.val = 2048 * (t.val / 16) + p.val
    have := a.isLt; omega)
  rw [e1, e2]

/-- After an edge tile's last point the `Ri` total is the sum over every node. -/
theorem totalI_all (c : Dev nD) (t : Fin cfg0.N) (h1 : t.val % 16 = 15) (p : Fin 2048) (d : Fin 4) :
    (outsAt0 m c t.val t.isLt).2.2 (ix2 p d)
      = gather (fun n e => argRi m c (ix2 n e)) (fun n d => argX m c (ix2 n d)) (edgeOf t p) d := by
  rw [totalI_eq, h1]
  unfold gather
  refine sum_nodes_by_range
    (fun n => argRi m c (ix2 n (edgeOf t p)) * argX m c (ix2 n d)) _ (fun a => ?_)
  have hN : cfg0.N = 256 := N_0
  have hlt : 16 * (t.val / 16) + a.val < cfg0.N := by have := t.isLt; have := a.isLt; omega
  unfold tileI
  rw [dif_pos hlt]
  unfold Payloads.tileSum
  refine Finset.sum_congr rfl fun k _ => ?_
  rw [blockRi, blockX]
  have e1 : nodeOf ⟨16 * (t.val / 16) + a.val, hlt⟩ k = node a k := Fin.ext (by
    show 512 * ((16 * (t.val / 16) + a.val) % 16) + k.val = 512 * a.val + k.val
    have := a.isLt; omega)
  have e2 : edgeOf ⟨16 * (t.val / 16) + a.val, hlt⟩ p = edgeOf t p := Fin.ext (by
    show 2048 * ((16 * (t.val / 16) + a.val) / 16) + p.val = 2048 * (t.val / 16) + p.val
    have := a.isLt; omega)
  rw [e1, e2]

/-- At an edge tile's last point the `Ro` total is the last tile's product added to what the point before left. -/
theorem totalO_at_last (c : Dev nD) (t : Fin cfg0.N) (h0 : ¬t.val % 16 = 0) (h1 : t.val % 16 = 15) :
    (outsAt0 m c t.val t.isLt).2.1 = k0_pay3 (F := Ideal) (iblk m c 0 t) (iblk m c 2 t) (outsAt0 m c (t.val - 1) (Nat.lt_of_le_of_lt (Nat.sub_le _ _) t.isLt)).2.1 := by
  rw [outsAt0_C m c t h0 h1]
  dsimp only
  exact Pieces.totalO_last (F := Ideal) ..

/-- At an edge tile's last point the `Ri` total is the last tile's product added to what the point before left. -/
theorem totalI_at_last (c : Dev nD) (t : Fin cfg0.N) (h0 : ¬t.val % 16 = 0) (h1 : t.val % 16 = 15) :
    (outsAt0 m c t.val t.isLt).2.2 = k0_pay4 (F := Ideal) (iblk m c 0 t) (iblk m c 1 t) (outsAt0 m c (t.val - 1) (Nat.lt_of_le_of_lt (Nat.sub_le _ _) t.isLt)).2.2 := by
  rw [outsAt0_C m c t h0 h1]
  dsimp only
  exact Pieces.totalI_last (F := Ideal) ..

/-- WHAT AN EDGE TILE'S LAST POINT WRITES BACK: its block of the edge scores. -/
theorem flushed_eq (c : Dev nD) (t : Fin cfg0.N) (hf : (cfg0.win 7).flush t = true) :
    (dats m 0 c).flushed 7 t = ((cfg0.win 7).blk t).view.read (Elt Ideal) (scores m c) := by
  have h1 : t.val % 16 = 15 := (flush0_7 t).mp hf
  have h0 : ¬t.val % 16 = 0 := by omega
  rw [flushed7_C m c t h0 h1, Pieces.scores_last, ← totalO_at_last m c t h0 h1, ← totalI_at_last m c t h0 h1]
  funext j
  have hp : (j 0).val < 2048 := (j 0).isLt
  have hz : (j 1).val < 1 := (j 1).isLt
  have hj : (cfg0.win 7).xinj (grid0.coords t) j = ix2 (⟨(j 0).val, hp⟩ : Fin 2048) (0 : Fin 1) :=
    funext fun a => Fin.ext (by
      match a with
      | ⟨0, _⟩ => rfl
      | ⟨1, _⟩ => show (j 1).val = 0; omega)
  obtain ⟨-, -, -, -, -, -, -, -, -, -, -, -, -, -, e0, e1⟩ := block_indices t
  have hi : ((cfg0.win 7).blk t).view.emb j = ix2 (edgeOf t ⟨(j 0).val, hp⟩) (0 : Fin 1) :=
    funext fun a => Fin.ext (by
      match a with
      | ⟨0, _⟩ => show win0_7.index t (0 : Fin 2) * 2048 + 1 * (j 0).val = 2048 * (t.val / 16) + (j 0).val; omega
      | ⟨1, _⟩ => show win0_7.index t (1 : Fin 2) * 1 + 1 * (j 1).val = 0; omega)
  rw [View.read_apply]
  show k0_pay5 (F := Ideal) _ _ _ _ _ _ ((cfg0.win 7).xinj (grid0.coords t) j) = scores m c (((cfg0.win 7).blk t).view.emb j)
  rw [hj, hi, Payloads.scores_apply]
  unfold scores edgeScores
  refine head_congr (congrArg₂ sideBySide (funext fun d => ?_) (funext fun d => ?_))
    (funext fun a => funext fun h => ?_) (funext fun h => ?_) (funext fun h => ?_) ?_
  · exact totalO_all m c t h1 _ d
  · exact totalI_all m c t h1 _ d
  · exact blockW1 m c t a h
  · exact blockB1 m c t h
  · exact blockW2 m c t h
  · exact blockB2 m c t

/-- An index of the result array is in point `t`'s block iff each coordinate is in the block's range. -/
theorem mem_block (t : Fin cfg0.N) (i : S32768x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v2).slice (win0_7.rect t)).set ↔ _
  rw [View.set_slice_whole, Rect.mem_set_unit]
  exact Iff.rfl

/-- Every edge is in the block its tile's last point writes back. -/
theorem covered (i : S32768x1.Idx) :
    ∃ t : Fin cfg0.N, (cfg0.win 7).flush t = true ∧ i ∈ ((cfg0.win 7).blk t).view.set := by
  have hN : cfg0.N = 256 := N_0
  have hi0 : (i 0).val < 32768 := (i 0).isLt
  have hi1 : (i 1).val < 1 := (i 1).isLt
  refine ⟨⟨16 * ((i 0).val / 2048) + 15, by omega⟩, (flush0_7 _).mpr (by show (16 * ((i 0).val / 2048) + 15) % 16 = 15; omega), ?_⟩
  rw [mem_block]
  obtain ⟨-, -, -, -, -, -, -, -, -, -, -, -, -, -, e0, e1⟩ :=
    block_indices (⟨16 * ((i 0).val / 2048) + 15, by omega⟩ : Fin cfg0.N)
  intro a
  match a with
  | ⟨0, _⟩ =>
    show win0_7.index _ (0 : Fin 2) * 2048 ≤ (i 0).val ∧ (i 0).val < win0_7.index _ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win0_7.index _ (1 : Fin 2) * 1 ≤ (i 1).val ∧ (i 1).val < win0_7.index _ (1 : Fin 2) * 1 + 1
    rw [e1]
    omega

/-- THE RESULT ARRAY after the run: the edge scores. -/
theorem final (c : Dev nD) : (dats m 0 c).arrAt 7 cfg0.N = scores m c :=
  (dats m 0 c).arrAt_eq_of_cover 7 (scores m c) (fun t hf => flushed_eq m c t hf) covered

/-- The run, read: the result array at the edge scores of the arguments, the arguments unchanged. -/
theorem run : θ_run defs (onTc (τ := τ) (main (F := Ideal))) ⟨m, fun _ => 0, ρ⟩ fun r => ∀ c : Dev nD,
      r.2.mem ((c : Thread nD τ).loc main_v2) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Result

end
-- ==== Proof.RefScores.lean ====
/-
  The reference computes the edge scores.

  Read one operation at a time, the host program's result at edge `e` is: the two products `Roᵀ · X` and `Riᵀ · X` at
  row `e`, joined along the columns, through the first dense layer and `tanh`, through the second, and
  `1 / (1 + exp (−x))` of that — which is the logistic function, the constant word being the number one.
-/
import proofs.«166029_j24936580121170_2_alg».proof.Proof.Gen.ReferenceIdeal.Read
import proofs.«166029_j24936580121170_2_alg».proof.Proof.RowForms

noncomputable section

open scoped BigOperators

namespace Cert.ReferenceIdeal.RefScores

open Cert.ReferenceIdeal Cert.ReferenceIdeal.Read Idealize.ShloMosaic Idealize.ShloMosaic.ValueIdx Cert.EdgeSpec
  Cert.RowForms

/-- Row `e` of `Roᵀ · X`. -/
theorem gatherO_apply (x0 : (⟨S8192x4, .f32⟩ : BufTy).Contents (Elt Ideal)) (x2 : (⟨S8192x32768, .f32⟩ : BufTy).Contents (Elt Ideal)) (e : Fin 32768) (d : Fin 4) :
    val_main_v0 (F := Ideal) x0 x2 (ix2 e d) = gather (fun n e => x2 (ix2 n e)) (fun n d => x0 (ix2 n d)) e d := by
  rw [val_main_v0_apply]
  unfold gather
  refine Finset.sum_congr rfl fun n _ => ?_
  have el : lidx_main_v0 (ix2 e d) n = ix2 n e :=
    funext fun a => Fin.ext (by match a with | ⟨0, _⟩ => rfl | ⟨1, _⟩ => rfl)
  have er : ridx_main_v0 (ix2 e d) n = ix2 n d :=
    funext fun a => Fin.ext (by match a with | ⟨0, _⟩ => rfl | ⟨1, _⟩ => rfl)
  rw [el, er]

/-- Row `e` of `Riᵀ · X`. -/
theorem gatherI_apply (x0 : (⟨S8192x4, .f32⟩ : BufTy).Contents (Elt Ideal)) (x1 : (⟨S8192x32768, .f32⟩ : BufTy).Contents (Elt Ideal)) (e : Fin 32768) (d : Fin 4) :
    val_main_v1 (F := Ideal) x0 x1 (ix2 e d) = gather (fun n e => x1 (ix2 n e)) (fun n d => x0 (ix2 n d)) e d := by
  rw [val_main_v1_apply]
  unfold gather
  refine Finset.sum_congr rfl fun n _ => ?_
  have el : lidx_main_v1 (ix2 e d) n = ix2 n e :=
    funext fun a => Fin.ext (by match a with | ⟨0, _⟩ => rfl | ⟨1, _⟩ => rfl)
  have er : ridx_main_v1 (ix2 e d) n = ix2 n d :=
    funext fun a => Fin.ext (by match a with | ⟨0, _⟩ => rfl | ⟨1, _⟩ => rfl)
  rw [el, er]

/-- The eight features of edge `e`. -/
theorem features_apply (x0 : (⟨S8192x4, .f32⟩ : BufTy).Contents (Elt Ideal)) (x1 x2 : (⟨S8192x32768, .f32⟩ : BufTy).Contents (Elt Ideal)) (e : Fin 32768) (j : Fin 8) :
    val_main_v2 (F := Ideal) x0 x1 x2 (ix2 e j)
      = sideBySide (gather (fun n e => x2 (ix2 n e)) (fun n d => x0 (ix2 n d)) e)
          (gather (fun n e => x1 (ix2 n e)) (fun n d => x0 (ix2 n d)) e) j := by
  unfold val_main_v2
  refine (join_cols_apply _ _ _ e j).trans ?_
  exact congrArg₂ (fun u v => sideBySide u v j) (funext fun d => gatherO_apply x0 x2 e d)
    (funext fun d => gatherI_apply x0 x1 e d)

/-- The hidden unit `h` of edge `e`. -/
theorem hidden_apply (x0 : (⟨S8192x4, .f32⟩ : BufTy).Contents (Elt Ideal)) (x1 x2 : (⟨S8192x32768, .f32⟩ : BufTy).Contents (Elt Ideal)) (x3 : (⟨S8x100, .f32⟩ : BufTy).Contents (Elt Ideal)) (x4 : (⟨S100, .f32⟩ : BufTy).Contents (Elt Ideal))
    (e : Fin 32768) (h : Fin 100) :
    val_main_v7 (F := Ideal) x0 x1 x2 x3 x4 (ix2 e h)
      = Ideal.tanh ((∑ j : Fin 8, sideBySide (gather (fun n e => x2 (ix2 n e)) (fun n d => x0 (ix2 n d)) e)
          (gather (fun n e => x1 (ix2 n e)) (fun n d => x0 (ix2 n d)) e) j * x3 (ix2 j h)) + x4 (ix1 h)) := by
  rw [val_main_v7_apply, val_main_v6_apply, val_main_v3_apply, val_main_v5_apply, val_main_v4_apply]
  show Ideal.tanh (_ + _) = Ideal.tanh (_ + _)
  refine congrArg Ideal.tanh (congrArg₂ (· + ·) ?_ ?_)
  · refine Finset.sum_congr rfl fun j _ => ?_
    have el : lidx_main_v3 (ix2 e h) j = ix2 e j :=
      funext fun a => Fin.ext (by match a with | ⟨0, _⟩ => rfl | ⟨1, _⟩ => rfl)
    have er : ridx_main_v3 (ix2 e h) j = ix2 j h :=
      funext fun a => Fin.ext (by match a with | ⟨0, _⟩ => rfl | ⟨1, _⟩ => rfl)
    rw [el, er, features_apply]
  · exact congrArg x4 (funext fun a => Fin.ext (by match a with | ⟨0, _⟩ => rfl))

/-- The reference's result is the edge scores of its arguments. -/
theorem scores_eq (x0 : (⟨S8192x4, .f32⟩ : BufTy).Contents (Elt Ideal)) (x1 x2 : (⟨S8192x32768, .f32⟩ : BufTy).Contents (Elt Ideal)) (x3 : (⟨S8x100, .f32⟩ : BufTy).Contents (Elt Ideal)) (x4 : (⟨S100, .f32⟩ : BufTy).Contents (Elt Ideal))
    (x5 : (⟨S100x1, .f32⟩ : BufTy).Contents (Elt Ideal)) (x6 : (⟨S1, .f32⟩ : BufTy).Contents (Elt Ideal)) :
    val_main_v17 (F := Ideal) x0 x1 x2 x3 x4 x5 x6 = edgeScores x0 x1 x2 x3 x4 x5 x6 := by
  funext i
  obtain ⟨e, z, rfl⟩ : ∃ (e : Fin 32768) (z : Fin 1), i = ix2 e z := ⟨i 0, i 1, eq_ix2 i⟩
  obtain rfl : z = 0 := Subsingleton.elim _ _
  rw [val_main_v17_apply, val_main_v16_apply, val_main_cst_0_apply, val_main_v15_apply, val_main_v14_apply,
    val_main_cst_apply, val_main_v13_apply, val_main_v12_apply, val_main_v11_apply, val_main_v8_apply,
    val_main_v10_apply, val_main_v9_apply]
  unfold edgeScores head
  show Ideal.div (Ideal.ofBits .f32 0x3F800000#32) (Ideal.ofBits .f32 0x3F800000#32 + Ideal.exp (-(_ + _)))
    = Ideal.logistic (_ + _)
  rw [one_word]
  show Ideal.logistic (_ + _) = Ideal.logistic (_ + _)
  refine congrArg Ideal.logistic (congrArg₂ (· + ·) ?_ ?_)
  · refine Finset.sum_congr rfl fun h _ => ?_
    have el : lidx_main_v8 (ix2 e (0 : Fin 1)) h = ix2 e h :=
      funext fun a => Fin.ext (by match a with | ⟨0, _⟩ => rfl | ⟨1, _⟩ => rfl)
    have er : ridx_main_v8 (ix2 e (0 : Fin 1)) h = ix2 h (0 : Fin 1) :=
      funext fun a => Fin.ext (by match a with | ⟨0, _⟩ => rfl | ⟨1, _⟩ => rfl)
    rw [el, er, hidden_apply]
  · exact congrArg x6 (funext fun a => Fin.ext (by match a with | ⟨0, _⟩ => rfl))

end Cert.ReferenceIdeal.RefScores

end
-- ==== Proof.lean ====
/-
  The certificate of the edge network kernel against its reference.

  The kernel streams two 8192 × 32768 incidence matrices through 16 × 16 tiles, keeps per edge tile two running totals
  `Roᵀ · X` and `Riᵀ · X` over the node tiles, and at the last node tile scores the 2048 edges of the tile with a
  two-layer perceptron (`tanh`, then the logistic function). The reference computes the two products whole, joins
  them, and applies the same perceptron, its logistic spelt `1 / (1 + exp (−x))`.

  Over the extended reals both result arrays are `EdgeSpec.edgeScores` of the arguments: a sum over the 8192 nodes is
  the sum of its sixteen tile sums whatever the values (addition is commutative and associative also at the
  infinities), so the precondition is never opened; the matrix unit into a zero accumulator and the host's dot product
  are the same sum; `1 / (1 + exp (−x))` with the word of 1.0 is the logistic function.

  The three frames are the generated ones (the reference's is its generated run with the result dropped); nothing was
  rewritten by the ideal pass, so `preserves` is trivial.
-/
import proofs.«166029_j24936580121170_2_alg».proof.Defs
import proofs.«166029_j24936580121170_2_alg».proof.Proof.Gen.Kernel
import proofs.«166029_j24936580121170_2_alg».proof.Proof.Gen.Kernel.Skeleton
import proofs.«166029_j24936580121170_2_alg».proof.Proof.Gen.Kernel.Launch
import proofs.«166029_j24936580121170_2_alg».proof.Proof.Gen.Kernel.Points
import proofs.«166029_j24936580121170_2_alg».proof.Proof.Gen.Kernel.Frame
import proofs.«166029_j24936580121170_2_alg».proof.Proof.Gen.KernelIdeal
import proofs.«166029_j24936580121170_2_alg».proof.Proof.Gen.KernelIdeal.Skeleton
import proofs.«166029_j24936580121170_2_alg».proof.Proof.Gen.KernelIdeal.Launch
import proofs.«166029_j24936580121170_2_alg».proof.Proof.Gen.KernelIdeal.Points
import proofs.«166029_j24936580121170_2_alg».proof.Proof.Gen.KernelIdeal.Frame
import proofs.«166029_j24936580121170_2_alg».proof.Proof.Gen.ReferenceIdeal
import proofs.«166029_j24936580121170_2_alg».proof.Proof.Gen.Pre_finite_inputs
import proofs.«166029_j24936580121170_2_alg».proof.Proof.Gen.KernelIdeal.Value
import proofs.«166029_j24936580121170_2_alg».proof.Proof.Gen.ReferenceIdeal.Run
import proofs.«166029_j24936580121170_2_alg».proof.Proof.Gen.ReferenceIdeal.Read
import proofs.«166029_j24936580121170_2_alg».proof.Proof.Result
import proofs.«166029_j24936580121170_2_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the edge scores of arguments that agree. -/
theorem algebraic : Cert.algebraic_KernelIdeal_ReferenceIdeal := by
  intro m ρ m' ρ' _ hagree
  refine ⟨fun c => Cert.KernelIdeal.Result.scores m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v17_eq, Cert.ReferenceIdeal.RefScores.scores_eq, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
